-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  main_v3
-- ==== Kernel.lean ====
abbrev S4096x8192 : Shape := ⟨2, ![4096, 8192]⟩
abbrev S128x8192 : Shape := ⟨2, ![128, 8192]⟩
abbrev S33554432 : Shape := ⟨1, ![33554432]⟩

abbrev nBuf : Space → Nat
  | .hbm => 3
  | .vmem => 4
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S33554432, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S128x8192_S128x8192_0_0 : ∀ a, (![0, 0] : Fin 2 → Nat) a + S128x8192.size a ≤ S128x8192.size a
  h_S128x8192 : 0 < S128x8192.numel
  shapeCasts_S4096x8192_S33554432 : S4096x8192.ShapeCasts S33554432
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S4096x8192.size a
  hwx0_0 : ∀ i : grid0.Coords, EltTy.bits .f32 = 32 ∨ (Rect.block (s := S4096x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S4096x8192.size a
  hwx0_1 : ∀ i : grid0.Coords, EltTy.bits .f32 = 32 ∨ (Rect.block (s := S4096x8192) S128x8192.size (cc0_transform_1 i) (hinb0_1 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S_ : Shape := ⟨0, ![]⟩
abbrev S33554432 : Shape := ⟨1, ![33554432]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S_, .f32⟩
  | .hbm, ⟨2, _⟩ => ⟨S4096x8192, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S33554432, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  shapeCasts_S4096x8192_S33554432 : S4096x8192.ShapeCasts S33554432

variable [Facts₀]

class Facts : Prop extends Facts₀ where

variable [Facts]
-- ==== Proof.Loss.lean ====
/-
  The function both programs compute, on the extended reals, and its two spellings.

  Pointwise the loss is  L(x) = -log(1 - (x - 1)²).  The kernel writes it as `0 - log(1 - (x - 1)·(x - 1))`
  (a subtraction from a zero splat), the reference as the negation `-(log(1 - (x - 1)·(x - 1)))`; the
  constant `1.0` is the same f32 word on both sides and denotes the real number 1.  On the extended reals
  `0 - y = -y` for EVERY `y` (the infinities included: `0 - ⊤ = ⊥ = -⊤`, `0 - ⊥ = ⊤ = -⊥`), so the two
  spellings are one function of `x` with no side condition: neither finiteness of `x` nor positivity of the
  logarithm's argument is used.
-/
import Idealize.ShloMosaic.PureOps.Ideal
import Idealize.ShloMosaic.PureOps.Ideal.Laws
import Idealize.ShloMosaic.PureOps.IdealRules

noncomputable section

namespace Cert.Loss

open Idealize.ShloMosaic

/-- The pointwise loss on the extended reals: `-log(1 - (x - 1)²)`, with the logarithm's conventions at
    `0`, the negatives and the infinities those of `Ideal.log`. -/
def lossAt (x : EReal) : EReal := -(Ideal.log (1 - (x - 1) * (x - 1)))

/-- The loss applied to every entry of an array of any shape. -/
def lossArr {s : Shape} (x : s.Idx → EReal) : s.Idx → EReal := fun i => lossAt (x i)

theorem lossArr_apply {s : Shape} (x : s.Idx → EReal) (i : s.Idx) : lossArr x i = lossAt (x i) := rfl

/-- The f32 word of `1.0` denotes the real number one. -/
theorem one_f32 : Ideal.ofBits .f32 0x3F800000#32 = 1 := IdealRules.sign_bit.ideal_onePat .f32

/-- The kernel's spelling, a subtraction from the zero word: `0 - log(1 - (x - 1)(x - 1))` is the loss. -/
theorem zero_sub_form (x : EReal) :
    Ideal.ofBits .f32 0x00000000#32
        - Ideal.log (Ideal.ofBits .f32 0x3F800000#32
            - (x - Ideal.ofBits .f32 0x3F800000#32) * (x - Ideal.ofBits .f32 0x3F800000#32))
      = lossAt x := by
  rw [Ideal.ofBits_zero_f32, one_f32, zero_sub]
  rfl

/-- The reference's spelling, a negation: `-(log(1 - (x - 1)(x - 1)))` is the loss. -/
theorem neg_form (x : EReal) :
    -(Ideal.log (Ideal.ofBits .f32 0x3F800000#32
            - (x - Ideal.ofBits .f32 0x3F800000#32) * (x - Ideal.ofBits .f32 0x3F800000#32)))
      = lossAt x := by
  rw [one_f32]
  rfl

end Cert.Loss

end
-- ==== Proof.KernelValue.lean ====
/-
  What the kernel's program leaves in its result: the loss of every entry of the argument, flattened.

  The grid has 32 points; point `t` fetches rows `128·t … 128·t + 127` of the 4096 × 8192 argument (all 8192
  columns), computes on that block, and writes the block back to the same rows of the output array.  The body
  is one store of a value computed entry by entry from the one load, so entry `(r, k)` of the block written
  at point `t` is the loss of entry `(128·t + r, k)` of the argument: what a point writes back is its block of
  ONE whole-array function, the loss array of the argument.  The 32 blocks tile the rows — row `r` lies in the
  block of point `r / 128` — so after the region the output array IS the loss array.  The one host line after
  the region reshapes that array to a single axis.
-/
import proofs.«139747_j49898930045229_1_alg».proof.Proof.Gen.KernelIdeal.Frame
import proofs.«139747_j49898930045229_1_alg».proof.Proof.Loss
import Idealize.ShloMosaic.Lib.Pipeline.Value
import Idealize.ShloMosaic.Lib.StableHlo.Run

set_option maxRecDepth 16384

noncomputable section

namespace Cert.KernelIdeal.LossValue

open Cert.KernelIdeal Cert.KernelIdeal.Gen Idealize.ShloMosaic Idealize.ShloMosaic.TcCoe Idealize.SL.Sem
open Idealize.ShloMosaic.Pipeline (Dat)
open Cert.Loss

variable (m : (ℓ : Loc nD τ sig) → Buf (Elt Ideal) ℓ) (ρ : Dev nD → PrngReg)

/-! ## The body, entry by entry -/

/-- The body's one load and one store start at the block's origin. -/
theorem origin : (![0, 0] : Fin 2 → Nat) = fun _ => 0 := funext fun a => by fin_cases a <;> rfl

/-- The stored value is the loss of the loaded block, entry by entry: every operation of the body acts on each
    entry by itself, the splats read at an entry are their words, and the subtraction from the zero splat is
    the loss's subtraction spelling. -/
theorem body_eq_loss (x : Vec Ideal S128x8192 .f32) : k0_pay1 (F := Ideal) x = lossArr (s := S128x8192) x :=
  funext fun j => zero_sub_form (x j)

/-! ## From the blocks to the array -/

/-- At every grid point the input block and the output block sit at the same block indices. -/
theorem blocks_aligned : ∀ t : Fin cfg0.N, win0_0.index t (0 : Fin 2) = win0_1.index t (0 : Fin 2)
    ∧ win0_0.index t (1 : Fin 2) = win0_1.index t (1 : Fin 2) :=
  (by decide +kernel : ∀ t : Fin grid0.N, _)

/-- Every one of the 32 row blocks is some point's output block (the one column block is block 0). -/
theorem row_block_onto : ∀ q : Fin 32, ∃ t : Fin cfg0.N, win0_1.index t = ![q.val, 0] :=
  (by decide +kernel : ∀ q : Fin 32, ∃ t : Fin grid0.N, win0_1.index t = ![q.val, 0])

/-- What point `t` writes back is block `t` of the loss array of the argument as the region finds it. -/
theorem flushed_eq (c : Dev nD) (t : Fin cfg0.N) :
    (dats m 0 c).flushed 1 t
      = ((cfg0.win 1).blk t).view.read (Elt Ideal) (lossArr (s := S4096x8192) (V m c main_arg0)) := by
  show (cfg0.win 1).cut (grid0.coords t) ((dats m 0 c).after 1 t) = _
  rw [after0_1]
  unfold out0_1
  rw [View.canon_unit_zero origin]
  simp only [View.ld_unit_zero (S := S128x8192) origin]
  rw [body_eq_loss]
  obtain ⟨e0, e1⟩ := blocks_aligned t
  funext j
  show lossAt (V m c main_arg0 (((cfg0.win 0).blk t).view.emb j))
    = lossAt (V m c main_arg0 (((cfg0.win 1).blk t).view.emb j))
  have h0 : ((cfg0.win 0).blk t).view.emb j = ((cfg0.win 1).blk t).view.emb j := by
    funext a; apply Fin.ext
    match a with
    | ⟨0, _⟩ =>
      show win0_0.index t (0 : Fin 2) * 128 + 1 * (j 0).val = win0_1.index t (0 : Fin 2) * 128 + 1 * (j 0).val
      omega
    | ⟨1, _⟩ =>
      show win0_0.index t (1 : Fin 2) * 8192 + 1 * (j 1).val = win0_1.index t (1 : Fin 2) * 8192 + 1 * (j 1).val
      omega
  rw [h0]

/-- An entry of the output array is in point `t`'s block iff each coordinate is in the block's range. -/
theorem mem_blk (t : Fin cfg0.N) (i : S4096x8192.Idx) :
    i ∈ ((cfg0.win 1).blk t).view.set ↔ ∀ a : Fin 2, win0_1.index t a * S128x8192.size a ≤ (i a).val
      ∧ (i a).val < win0_1.index t a * S128x8192.size a + S128x8192.size a := by
  show i ∈ ((View.whole main_v0).slice (win0_1.rect t)).set ↔ _
  rw [View.set_slice_whole, Rect.mem_set_unit]
  exact Iff.rfl

/-- The blocks tile the array: entry `(r, k)` lies in the block of the point whose row block is `r / 128`. -/
theorem covered (i : S4096x8192.Idx) :
    ∃ t : Fin cfg0.N, (cfg0.win 1).flush t = true ∧ i ∈ ((cfg0.win 1).blk t).view.set := by
  have hi0 : (i 0).val < 4096 := (i 0).isLt
  have hi1 : (i 1).val < 8192 := (i 1).isLt
  obtain ⟨t, ht⟩ := row_block_onto ⟨(i 0).val / 128, by omega⟩
  have q0 : win0_1.index t (0 : Fin 2) = (i 0).val / 128 := congrFun ht 0
  have q1 : win0_1.index t (1 : Fin 2) = 0 := congrFun ht 1
  refine ⟨t, flush0_1 t, ?_⟩
  rw [mem_blk]
  intro a
  match a with
  | ⟨0, _⟩ =>
    show win0_1.index t (0 : Fin 2) * 128 ≤ (i 0).val ∧ (i 0).val < win0_1.index t (0 : Fin 2) * 128 + 128
    omega
  | ⟨1, _⟩ =>
    show win0_1.index t (1 : Fin 2) * 8192 ≤ (i 1).val ∧ (i 1).val < win0_1.index t (1 : Fin 2) * 8192 + 8192
    omega

/-- The output array after the region is the loss array of the argument. -/
theorem array_eq_loss (c : Dev nD) :
    (dats m 0 c).arrAt 1 cfg0.N = lossArr (s := S4096x8192) (V m c main_arg0) :=
  (dats m 0 c).arrAt_eq_of_cover 1 _ (fun t _ => flushed_eq m c t) covered

/-! ## The host line after the region, and the run -/

/-- The result buffer after the reshape that follows the region: the loss array of the argument, reshaped to
    one axis. -/
theorem result_eq_loss (c : Dev nD) :
    Pipeline.afterTail₀ cfgs (dats m) 0 (V0 m) [hostOps1] c main_v1
      = shapeCast _ (lossArr (s := S4096x8192) (m ((c : Thread nD τ).loc main_arg0)))
          shapeCasts_S4096x8192_S33554432 := by
  unfold Pipeline.afterTail₀
  show StableHlo.after hostOps1 _ (Proc.devRef .tc main_v1) = _
  after_results
  have e : Pipeline.withArrays (cfgs 0).spec c (V0 m c) (fun w => (dats m 0 c).arrAt w (cfgs 0).N)
        (Proc.devRef .tc main_v0) = lossArr (s := S4096x8192) (m ((c : Thread nD τ).loc main_arg0)) :=
    (Pipeline.withArrays_arr spec0 launch0.win.arr_inj c _ _ 1).trans (array_eq_loss m c)
  rw [e]
  rfl

/-- The result buffer is an unscoped buffer that is no window's array, so the frame run reports it as the
    lines after the region leave it. -/
theorem result_mem_rest : main_v1 ∈ Pipeline.restRefs sig cfg0.spec :=
  Pipeline.mem_restRefs_of main_v1 rfl (by decide)

/-- The kernel's program runs to the loss array of its argument, reshaped to one axis, with the argument
    unchanged: the generated frame run, its post read at the result buffer and at the argument. -/
theorem run : θ_run defs (onTc (τ := τ) (main (F := Ideal))) ⟨m, fun _ => 0, ρ⟩ fun r => ∀ c : Dev nD,
      r.2.mem ((c.tc : Thread nD τ).loc main_v1)
          = shapeCast _ (lossArr (s := S4096x8192) (m ((c.tc : Thread nD τ).loc main_arg0)))
              shapeCasts_S4096x8192_S33554432
      ∧ r.2.mem ((c.tc : Thread nD τ).loc main_arg0) = m ((c.tc : Thread nD τ).loc main_arg0) :=
  (θ_run defs _ _).mono (fun r h c => ⟨((h c).2 main_v1 result_mem_rest).trans (result_eq_loss m c),
      ((h c).1 0).trans (((dats m 0 c).arrAt_in 0 rfl _).trans ((A_eq m c 0).trans (V_main_arg0 m c)))⟩)
    (run_main m ρ)

end Cert.KernelIdeal.LossValue

end
-- ==== Proof.RefValue.lean ====
/-
  The reference's result is the loss of its argument, entry by entry, flattened.

  The reference computes, on the whole 4096 × 8192 array, `d = x - 1`, `1 - d·d`, its logarithm and the
  negation, and reshapes the result to one axis of 33554432 entries.  Every operation before the reshape
  acts on each entry by itself, so entry `i` of the array before the reshape is
  `-(log(1 - (x i - 1)(x i - 1)))`: the loss `L(x i)` in its negation spelling.  The reshape is left as it
  is: the kernel's program ends with the same reshape of the same array.
-/
import proofs.«139747_j49898930045229_1_alg».proof.Proof.Gen.ReferenceIdeal.Read
import proofs.«139747_j49898930045229_1_alg».proof.Proof.Loss

noncomputable section

namespace Cert.ReferenceIdeal.LossValue

open Cert.ReferenceIdeal Cert.ReferenceIdeal.Gen Cert.ReferenceIdeal.Read Idealize.ShloMosaic Idealize.ShloMosaic.TcCoe
open Cert.Loss

/-- Before the reshape the reference holds the loss of every entry of its argument: the two splats of the
    word `1.0` read at an index are that word, the subtractions, the product, the logarithm and the negation
    act entry by entry, and the negation spelling is the loss. -/
theorem negated_log_eq_loss (x : (⟨S4096x8192, .f32⟩ : BufTy).Contents (Elt Ideal)) :
    val_main_v6 (F := Ideal) x = lossArr (s := S4096x8192) x := by
  funext i
  rw [val_main_v6_apply, val_main_v5_apply, val_main_v4_apply, val_main_v3_apply, val_main_cst_0_apply,
    val_main_v2_apply, val_main_v1_apply, val_main_v0_apply, val_main_cst_apply]
  exact neg_form (x i)

/-- The reference's result: the loss array, reshaped to one axis. -/
theorem result_eq_loss (x : (⟨S4096x8192, .f32⟩ : BufTy).Contents (Elt Ideal)) :
    val_main_v7 (F := Ideal) x
      = shapeCast _ (lossArr (s := S4096x8192) x) shapeCasts_S4096x8192_S33554432 := by
  unfold val_main_v7
  rw [negated_log_eq_loss]

end Cert.ReferenceIdeal.LossValue

end
-- ==== Proof.lean ====
/-
  The kernel and its reference compute one function: the loss `L(x) = -log(1 - (x - 1)²)` of every entry of a
  4096 × 8192 array, flattened to one axis.

  The kernel's program is one grid of 32 points, each handling 128 whole rows, followed by a reshape; the
  reference is the same arithmetic on the whole array followed by the same reshape.  At the ideal values both
  results are the reshape of the loss array of the argument: the kernel spells the final negation as a
  subtraction from zero, `0 - log(…)`, the reference as `-(log(…))`, and `0 - y = -y` holds for every
  extended real `y`, so no finiteness is needed and the precondition is never opened (Proof/Loss.lean).
  Proof/KernelValue.lean reads the kernel's result off its frame run — each point writes back its block of
  the loss array, the blocks tile the array, the reshape follows —, Proof/RefValue.lean reads the reference's
  result entry by entry.  The three frames are the generated ones (the reference's is its run with the result
  dropped), and the idealisation rewrote nothing, so `preserves` is trivial.
-/
import proofs.«139747_j49898930045229_1_alg».proof.Defs
import proofs.«139747_j49898930045229_1_alg».proof.Proof.Gen.Kernel
import proofs.«139747_j49898930045229_1_alg».proof.Proof.Gen.Kernel.Skeleton
import proofs.«139747_j49898930045229_1_alg».proof.Proof.Gen.Kernel.Launch
import proofs.«139747_j49898930045229_1_alg».proof.Proof.Gen.Kernel.Points
import proofs.«139747_j49898930045229_1_alg».proof.Proof.Gen.Kernel.Frame
import proofs.«139747_j49898930045229_1_alg».proof.Proof.Gen.KernelIdeal
import proofs.«139747_j49898930045229_1_alg».proof.Proof.Gen.KernelIdeal.Skeleton
import proofs.«139747_j49898930045229_1_alg».proof.Proof.Gen.KernelIdeal.Launch
import proofs.«139747_j49898930045229_1_alg».proof.Proof.Gen.KernelIdeal.Points
import proofs.«139747_j49898930045229_1_alg».proof.Proof.Gen.KernelIdeal.Frame
import proofs.«139747_j49898930045229_1_alg».proof.Proof.Gen.ReferenceIdeal
import proofs.«139747_j49898930045229_1_alg».proof.Proof.Gen.ReferenceIdeal.Run
import proofs.«139747_j49898930045229_1_alg».proof.Proof.Gen.ReferenceIdeal.Read
import proofs.«139747_j49898930045229_1_alg».proof.Proof.Gen.Pre_finite_inputs
import proofs.«139747_j49898930045229_1_alg».proof.Proof.Loss
import proofs.«139747_j49898930045229_1_alg».proof.Proof.KernelValue
import proofs.«139747_j49898930045229_1_alg».proof.Proof.RefValue
import Idealize.ShloMosaic.Adequacy
import Idealize.ShloMosaic.Init

noncomputable section

namespace Cert.Proof

open Idealize.ShloMosaic Idealize.SL.Sem

/-- The word-level kernel runs and keeps its argument. -/
theorem frame_kernel : Cert.frame_Kernel := fun m ρ _ => Cert.Kernel.Gen.frame m ρ

/-- The idealized kernel runs and keeps its argument. -/
theorem frame_kernel_ideal : Cert.frame_KernelIdeal := fun m ρ _ => Cert.KernelIdeal.Gen.frame m ρ

/-- The reference runs and keeps its argument: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealisation rewrote no operation of the kernel. -/
theorem preserves : Cert.preserves_Kernel_KernelIdeal := trivial

/-- Both programs end at the reshape of the loss array of the argument they agree on. -/
theorem algebraic : Cert.algebraic_KernelIdeal_ReferenceIdeal := by
  intro m ρ m' ρ' _ hagree
  refine ⟨_, Cert.KernelIdeal.LossValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.LossValue.result_eq_loss, hagree c]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
